-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x500x8192 : Shape := ⟨3, ![1, 500, 8192]⟩
abbrev S8192x500 : Shape := ⟨2, ![8192, 500]⟩
abbrev S_ : Shape := ⟨0, ![]⟩

class Facts : Prop where
  bcast_S_S1x500x8192 : S_.BroadcastsInDim S1x500x8192 (![] : Fin 0 → Fin S1x500x8192.rank)
  reducesTo_S1x500x8192_S_d0_1_2 : S1x500x8192.ReducesTo [0, 1, 2] S_
  h_S_ : 0 < S_.numel
  bcast_S_S8192x500 : S_.BroadcastsInDim S8192x500 (![] : Fin 0 → Fin S8192x500.rank)
  reducesTo_S8192x500_S_d0_1 : S8192x500.ReducesTo [0, 1] S_

variable [Facts]

def fn {F : FTy → Type} [FloatOps F] (main_arg0 : FVec F S1x500x8192 .f32) (main_arg1 : FVec F S8192x500 .f32) (main_arg2 : FVec F S8192x500 .f32) : IVec S_ 1 :=
  let main_v0 : FVec F S1x500x8192 .f32 := Host.absf main_arg0
  let main_cst : FVec F S_ .f32 := constant S_ .f32 0x7F800000#32
  let main_v1 : FVec F S1x500x8192 .f32 := broadcastInDim S1x500x8192 ![] bcast_S_S1x500x8192 main_cst
  let main_v2 : IVec S1x500x8192 1 := cmpf .olt main_v0 main_v1
  let main_c : IVec S_ 1 := constantI S_ 1 1#1
  let main_v3 : IVec S_ 1 := (fun x v => Host.reduce IntOp.andi x v reducesTo_S1x500x8192_S_d0_1_2 h_S_) main_v2 main_c
  let main_v4 : FVec F S8192x500 .f32 := Host.absf main_arg1
  let main_cst_0 : FVec F S_ .f32 := constant S_ .f32 0x7F800000#32
  let main_v5 : FVec F S8192x500 .f32 := broadcastInDim S8192x500 ![] bcast_S_S8192x500 main_cst_0
  let main_v6 : IVec S8192x500 1 := cmpf .olt main_v4 main_v5
  let main_c_1 : IVec S_ 1 := constantI S_ 1 1#1
  let main_v7 : IVec S_ 1 := (fun x v => Host.reduce IntOp.andi x v reducesTo_S8192x500_S_d0_1 h_S_) main_v6 main_c_1
  let main_v8 : IVec S_ 1 := andi main_v3 main_v7
  let main_v9 : FVec F S8192x500 .f32 := Host.absf main_arg2
  let main_cst_2 : FVec F S_ .f32 := constant S_ .f32 0x7F800000#32
  let main_v10 : FVec F S8192x500 .f32 := broadcastInDim S8192x500 ![] bcast_S_S8192x500 main_cst_2
  let main_v11 : IVec S8192x500 1 := cmpf .olt main_v9 main_v10
  let main_c_3 : IVec S_ 1 := constantI S_ 1 1#1
  let main_v12 : IVec S_ 1 := (fun x v => Host.reduce IntOp.andi x v reducesTo_S8192x500_S_d0_1 h_S_) main_v11 main_c_3
  let main_v13 : IVec S_ 1 := andi main_v8 main_v12
  main_v13
-- ==== Kernel.lean ====
abbrev S1x500x8192 : Shape := ⟨3, ![1, 500, 8192]⟩
abbrev S8192x500 : Shape := ⟨2, ![8192, 500]⟩
abbrev S4x8192x500 : Shape := ⟨3, ![4, 8192, 500]⟩
abbrev S1x500x1024 : Shape := ⟨3, ![1, 500, 1024]⟩
abbrev S1024x500 : Shape := ⟨2, ![1024, 500]⟩
abbrev S4x1024x500 : Shape := ⟨3, ![4, 1024, 500]⟩
abbrev S500x1024 : Shape := ⟨2, ![500, 1024]⟩
abbrev S1x1024x500 : Shape := ⟨3, ![1, 1024, 500]⟩
abbrev S32768x500 : Shape := ⟨2, ![32768, 500]⟩

abbrev nBuf : Space → Nat
  | .hbm => 5
  | .vmem => 8
  | .smem => 0
  | _ => 0

abbrev bufTy : (tb : Table) → Fin (tcTables nBuf tb) → BufTy
  | .hbm, ⟨0, _⟩ => ⟨S1x500x8192, .f32⟩
  | .hbm, ⟨1, _⟩ => ⟨S8192x500, .f32⟩
  | .hbm, ⟨2, _⟩ => ⟨S8192x500, .f32⟩
  | .hbm, ⟨3, _⟩ => ⟨S4x8192x500, .f32⟩
  | .hbm, ⟨4, _⟩ => ⟨S32768x500, .f32⟩
  | .local _ .vmem, ⟨0, _⟩ => ⟨S1x500x1024, .f32⟩
  | .local _ .vmem, ⟨1, _⟩ => ⟨S1x500x1024, .f32⟩
  | .local _ .vmem, ⟨2, _⟩ => ⟨S1024x500, .f32⟩
  | .local _ .vmem, ⟨3, _⟩ => ⟨S1024x500, .f32⟩
  | .local _ .vmem, ⟨4, _⟩ => ⟨S1024x500, .f32⟩
  | .local _ .vmem, ⟨5, _⟩ => ⟨S1024x500, .f32⟩
  | .local _ .vmem, ⟨6, _⟩ => ⟨S4x1024x500, .f32⟩
  | .local _ .vmem, ⟨7, _⟩ => ⟨S4x1024x500, .f32⟩
  | _, _ => ⟨S1x500x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x500x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x500x1024_S1x500x1024_0_0_0 : ∀ a, (![0, 0, 0] : Fin 3 → Nat) a + S1x500x1024.size a ≤ S1x500x1024.size a
  h_S1x500x1024 : 0 < S1x500x1024.numel
  shapeCasts_S1x500x1024_S500x1024 : S1x500x1024.ShapeCasts S500x1024
  inb_S1024x500_S1024x500_0_0 : ∀ a, (![0, 0] : Fin 2 → Nat) a + S1024x500.size a ≤ S1024x500.size a
  h_S1024x500 : 0 < S1024x500.numel
  transposes_S500x1024_p1_0_S1024x500 : S500x1024.Transposes [1, 0] S1024x500
  inb_S4x1024x500_S1x1024x500_0_0_0 : ∀ a, (![0, 0, 0] : Fin 3 → Nat) a + S1x1024x500.size a ≤ S4x1024x500.size a
  h_S1x1024x500 : 0 < S1x1024x500.numel
  shapeCasts_S1x1024x500_S1024x500 : S1x1024x500.ShapeCasts S1024x500
  shapeCasts_S1024x500_S1x1024x500 : S1024x500.ShapeCasts S1x1024x500
  inb_S4x1024x500_S1x1024x500_1_0_0 : ∀ a, (![1, 0, 0] : Fin 3 → Nat) a + S1x1024x500.size a ≤ S4x1024x500.size a
  inb_S4x1024x500_S1x1024x500_2_0_0 : ∀ a, (![2, 0, 0] : Fin 3 → Nat) a + S1x1024x500.size a ≤ S4x1024x500.size a
  inb_S4x1024x500_S1x1024x500_3_0_0 : ∀ a, (![3, 0, 0] : Fin 3 → Nat) a + S1x1024x500.size a ≤ S4x1024x500.size a
  shapeCasts_S4x8192x500_S32768x500 : S4x8192x500.ShapeCasts S32768x500
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x500x1024.size a ≤ S1x500x8192.size a
  hwx0_0 : ∀ i : grid0.Coords, EltTy.bits .f32 = 32 ∨ (Rect.block (s := S1x500x8192) S1x500x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x500.size a ≤ S8192x500.size a
  hwx0_1 : ∀ i : grid0.Coords, EltTy.bits .f32 = 32 ∨ (Rect.block (s := S8192x500) S1024x500.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x500.size a ≤ S8192x500.size a
  hwx0_2 : ∀ i : grid0.Coords, EltTy.bits .f32 = 32 ∨ (Rect.block (s := S8192x500) S1024x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024x500.size a ≤ S4x8192x500.size a
  hwx0_3 : ∀ i : grid0.Coords, EltTy.bits .f32 = 32 ∨ (Rect.block (s := S4x8192x500) S4x1024x500.size (cc0_transform_3 i) (hinb0_3 i)).WholeWords (EltTy.packing .f32)

variable [Facts₀]

abbrev win0_0 : Pipeline.Window sig grid0 :=
  Pipeline.Window.ofSpec (Memref.whole main_arg0) S1x500x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x500.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x1024x500.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x500x8192 : Shape := ⟨3, ![1, 500, 8192]⟩
abbrev S8192x500 : Shape := ⟨2, ![8192, 500]⟩
abbrev S500x8192 : Shape := ⟨2, ![500, 8192]⟩
abbrev S500x32768 : Shape := ⟨2, ![500, 32768]⟩
abbrev S32768x500 : Shape := ⟨2, ![32768, 500]⟩

abbrev nBuf : Space → Nat
  | .hbm => 10
  | .vmem => 0
  | .smem => 0
  | _ => 0

abbrev bufTy : (tb : Table) → Fin (tcTables nBuf tb) → BufTy
  | .hbm, ⟨0, _⟩ => ⟨S1x500x8192, .f32⟩
  | .hbm, ⟨1, _⟩ => ⟨S8192x500, .f32⟩
  | .hbm, ⟨2, _⟩ => ⟨S8192x500, .f32⟩
  | .hbm, ⟨3, _⟩ => ⟨S500x8192, .f32⟩
  | .hbm, ⟨4, _⟩ => ⟨S500x8192, .f32⟩
  | .hbm, ⟨5, _⟩ => ⟨S500x8192, .f32⟩
  | .hbm, ⟨6, _⟩ => ⟨S500x8192, .f32⟩
  | .hbm, ⟨7, _⟩ => ⟨S500x8192, .f32⟩
  | .hbm, ⟨8, _⟩ => ⟨S500x32768, .f32⟩
  | .hbm, ⟨9, _⟩ => ⟨S32768x500, .f32⟩
  | _, _ => ⟨S1x500x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S1x500x8192_S500x8192 : S1x500x8192.ShapeCasts S500x8192
  transposes_S8192x500_S500x8192_1_0 : S8192x500.Transposes [1, 0] S500x8192
  concatenates_S500x8192_S500x8192_S500x8192_S500x8192_S500x32768_d1 : Shape.Concatenates [S500x8192, S500x8192, S500x8192, S500x8192] S500x32768 1
  transposes_S500x32768_S32768x500_1_0 : S500x32768.Transposes [1, 0] S32768x500

variable [Facts₀]

class Facts : Prop extends Facts₀ where

variable [Facts]
-- ==== Proof.MergeSpec.lean ====
/-
  The attention-flow merge as ONE function of its three argument arrays.

  With H = h[0] of shape [T, D] (T = 500 positions, D = 8192 features) and the two attention arrays c2q, q2c of
  shape [D, T], the merge stacks four [D, T] pieces:
      piece 0 = Hᵀ,   piece 1 = c2q,   piece 2 = Hᵀ · c2q,   piece 3 = Hᵀ · q2c      (products entry by entry),
  and the result is the stack [4, D, T] read as [4·D, T]: row r = p·D + d of the result is row d of piece p.
  Nothing here depends on what the entries are: the entry type and its product are parameters.
-/
import Idealize.ShloMosaic.Lib.ValueIdx

noncomputable section

namespace Cert.Merge

open Idealize.ShloMosaic Idealize.ShloMosaic.ValueIdx

variable {α : Type}

/-- One entry of the merge from the three entries it may depend on: `x` of Hᵀ, `y` of c2q, `z` of q2c, by the piece
    number `p` (0: x, 1: y, 2: x·y, otherwise x·z). -/
def pick (mul : α → α → α) (p : Nat) (x y z : α) : α :=
  if p = 0 then x else if p = 1 then y else if p = 2 then mul x y else mul x z

theorem pick_zero (mul : α → α → α) (x y z : α) : pick mul 0 x y z = x := rfl
theorem pick_one (mul : α → α → α) (x y z : α) : pick mul 1 x y z = y := rfl
theorem pick_two (mul : α → α → α) (x y z : α) : pick mul 2 x y z = mul x y := rfl
theorem pick_three (mul : α → α → α) (x y z : α) : pick mul 3 x y z = mul x z := rfl

/-- Equal piece numbers and equal entries give equal merged entries. -/
theorem pick_congr (mul : α → α → α) {p p' : Nat} {x x' y y' z z' : α} (hp : p = p') (hx : x = x') (hy : y = y') (hz : z = z') :
    pick mul p x y z = pick mul p' x' y' z' := by
  subst hp hx hy hz; rfl

/-- h : [1, T, D]. -/
abbrev SH : Shape := ⟨3, ![1, 500, 8192]⟩
/-- c2q, q2c : [D, T]. -/
abbrev SA : Shape := ⟨2, ![8192, 500]⟩
/-- The four pieces stacked: [4, D, T]. -/
abbrev SG : Shape := ⟨3, ![4, 8192, 500]⟩
/-- The result: [4·D, T]. -/
abbrev SR : Shape := ⟨2, ![32768, 500]⟩

/-- The stack of the four pieces: entry (p, d, t) depends on h[0, t, d], c2q[d, t] and q2c[d, t] only. -/
def stacked (mul : α → α → α) (h : SH.Idx → α) (a b : SA.Idx → α) : SG.Idx → α := fun i =>
  pick mul (i 0).val (h (ix3 (0 : Fin 1) (i 2 : Fin 500) (i 1 : Fin 8192)))
    (a (ix2 (i 1 : Fin 8192) (i 2 : Fin 500))) (b (ix2 (i 1 : Fin 8192) (i 2 : Fin 500)))

/-- Row r of the result is row r mod D of piece r div D. -/
def unflat (i : SR.Idx) : SG.Idx :=
  ix3 (⟨(i 0).val / 8192, by have h : (i 0).val < 32768 := (i 0).isLt; omega⟩ : Fin 4)
    (⟨(i 0).val % 8192, Nat.mod_lt _ (by norm_num)⟩ : Fin 8192) (i 1 : Fin 500)

/-- The merge: the stack read as a [4·D, T] matrix. -/
def merged (mul : α → α → α) (h : SH.Idx → α) (a b : SA.Idx → α) : SR.Idx → α := fun i =>
  stacked mul h a b (unflat i)

end Cert.Merge

end
-- ==== Proof.BlockValue.lean ====
/-
  What one grid step of the kernel leaves in its output block, entry by entry.

  A step works on a block of 1024 features: it loads the [1, 500, 1024] block of h and the [1024, 500] blocks of c2q
  and q2c, transposes the h block to [1024, 500], and stores four [1, 1024, 500] slabs into its [4, 1024, 500] output
  block: the transposed h block, the c2q block, and their two entrywise products. Read at (p, d, t) the output block is
  therefore `pick` at piece p of the h block at (0, t, d), the c2q block at (d, t) and the q2c block at (d, t).
-/
import proofs.«131602_j77283641524594_2_alg».proof.Proof.Gen.KernelIdeal.Frame
import proofs.«131602_j77283641524594_2_alg».proof.Proof.MergeSpec
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx Cert.Merge

variable {F : FTy → Type} [FloatOps F]

/-- A [1024, 500] value stored as a [1, 1024, 500] slab reads, at (0, d, t), the value at (d, t). -/
theorem slab_apply {α : Type} (v : S1024x500.Idx → α) (h : S1024x500.ShapeCasts S1x1024x500) (x : S1x1024x500.Idx) :
    shapeCast S1x1024x500 v h x = v (ix2 (x 1 : Fin 1024) (x 2 : Fin 500)) :=
  shapeCast_apply v h x (ix2 (x 1 : Fin 1024) (x 2 : Fin 500)) (by
    rw [Shape.rowMajor_val_two, Shape.rowMajor_val_three]
    show (x 1).val * 500 + (x 2).val = ((x 0).val * 1024 + (x 1).val) * 500 + (x 2).val
    have h0 : (x 0).val < 1 := (x 0).isLt
    omega)

/-- The transposed h block at (d, t) is the h block at (0, t, d). -/
theorem transposed_apply (X0 : Vec F S1x500x1024 .f32) (d : Fin 1024) (s : Fin 500) :
    k0_pay1 X0 (ix2 d s) = X0 (ix3 (0 : Fin 1) s d) := by
  unfold k0_pay1
  refine (transpose_apply [1, 0] _ transposes_S500x1024_p1_0_S1024x500 (ix2 d s) (ix2 s d)
    (fun b => match b with | ⟨0, _⟩ => rfl | ⟨1, _⟩ => rfl)).trans ?_
  exact shapeCast_apply X0 shapeCasts_S1x500x1024_S500x1024 (ix2 s d) (ix3 (0 : Fin 1) s d) (by
    rw [Shape.rowMajor_val_three, Shape.rowMajor_val_two]
    show (0 * 500 + s.val) * 1024 + d.val = s.val * 1024 + d.val
    omega)

/-- Slab 0: the transposed h block. -/
theorem slab0_apply (X0 : Vec F S1x500x1024 .f32) (x : S1x1024x500.Idx) :
    k0_pay2 X0 x = X0 (ix3 (0 : Fin 1) (x 2 : Fin 500) (x 1 : Fin 1024)) := by
  unfold k0_pay2
  exact (slab_apply _ _ x).trans (transposed_apply X0 _ _)

/-- Slab 1: the c2q block. -/
theorem slab1_apply (X1 : Vec F S1024x500 .f32) (x : S1x1024x500.Idx) :
    k0_pay3 X1 x = X1 (ix2 (x 1 : Fin 1024) (x 2 : Fin 500)) := by
  unfold k0_pay3
  exact slab_apply _ _ x

/-- Slab 2: the transposed h block times the c2q block, entry by entry. -/
theorem slab2_apply (X0 : Vec F S1x500x1024 .f32) (X1 : Vec F S1024x500 .f32) (x : S1x1024x500.Idx) :
    k0_pay4 X0 X1 x = FloatOps.mulf (X0 (ix3 (0 : Fin 1) (x 2 : Fin 500) (x 1 : Fin 1024))) (X1 (ix2 (x 1 : Fin 1024) (x 2 : Fin 500))) := by
  unfold k0_pay4
  refine (slab_apply _ _ x).trans ?_
  exact congrArg (fun z => FloatOps.mulf z (X1 (ix2 (x 1 : Fin 1024) (x 2 : Fin 500)))) (transposed_apply X0 _ _)

/-- Slab 3: the transposed h block times the q2c block, entry by entry. -/
theorem slab3_apply (X0 : Vec F S1x500x1024 .f32) (X2 : Vec F S1024x500 .f32) (x : S1x1024x500.Idx) :
    k0_pay5 X0 X2 x = FloatOps.mulf (X0 (ix3 (0 : Fin 1) (x 2 : Fin 500) (x 1 : Fin 1024))) (X2 (ix2 (x 1 : Fin 1024) (x 2 : Fin 500))) := by
  unfold k0_pay5
  refine (slab_apply _ _ x).trans ?_
  exact congrArg (fun z => FloatOps.mulf z (X2 (ix2 (x 1 : Fin 1024) (x 2 : Fin 500)))) (transposed_apply X0 _ _)

/-- The output block as one function of the three input blocks. -/
def blockStack (x0 : Vec F S1x500x1024 .f32) (x1 x2 : Vec F S1024x500 .f32) : S4x1024x500.Idx → Elt F .f32 := fun y =>
  pick FloatOps.mulf (y 0).val (x0 (ix3 (0 : Fin 1) (y 2 : Fin 500) (y 1 : Fin 1024)))
    (x1 (ix2 (y 1 : Fin 1024) (y 2 : Fin 500))) (x2 (ix2 (y 1 : Fin 1024) (y 2 : Fin 500)))

/-- Slab k of the output block sits at (k, d, t). -/
theorem slab_emb (k : Nat) (hk : k < 4) (inb : ∀ a, (![k, 0, 0] : Fin 3 → Nat) a + S1x1024x500.size a ≤ S4x1024x500.size a)
    (x : S1x1024x500.Idx) :
    (Rect.unit (s := S4x1024x500) ![k, 0, 0] S1x1024x500.size inb).emb x = ix3 (⟨k, hk⟩ : Fin 4) (x 1 : Fin 1024) (x 2 : Fin 500) := by
  funext a; apply Fin.ext
  match a with
  | ⟨0, _⟩ => show k + 1 * (x 0).val = k; have h0 : (x 0).val < 1 := (x 0).isLt; omega
  | ⟨1, _⟩ => show 0 + 1 * (x 1).val = (x 1).val; omega
  | ⟨2, _⟩ => show 0 + 1 * (x 2).val = (x 2).val; omega

theorem zeros3 : (![0, 0, 0] : Fin 3 → Nat) = fun _ => 0 := funext fun a => by fin_cases a <;> rfl
theorem zeros2 : (![0, 0] : Fin 2 → Nat) = fun _ => 0 := funext fun a => by fin_cases a <;> rfl

/-- The four stores tile the output block and each stores the slab of `blockStack` it covers, so the block ends at
    `blockStack` of the input blocks. -/
theorem out_eq (x0 : Vec F S1x500x1024 .f32) (x1 x2 : Vec F S1024x500 .f32) :
    out0_3 x0 x1 x2 = blockStack x0 x1 x2 := by
  funext y
  unfold out0_3
  simp only [View.ld_unit_zero (S := S1x500x1024) zeros3, View.ld_unit_zero (S := S1024x500) zeros2]
  refine View.canon_apply_of_pieces (blockStack x0 x1 x2) _ ?_ y (cover0_3 _ _ _ _ y)
  intro p hp x
  simp only [List.mem_cons, List.mem_nil_iff, or_false] at hp
  rcases hp with rfl | rfl | rfl | rfl
  · show k0_pay5 x0 x2 x = blockStack x0 x1 x2 (r0_5.emb x)
    rw [slab_emb 3 (by decide) _ x, slab3_apply]
    exact (pick_three _ _ _ _).symm
  · show k0_pay4 x0 x1 x = blockStack x0 x1 x2 (r0_4.emb x)
    rw [slab_emb 2 (by decide) _ x, slab2_apply]
    exact (pick_two _ _ _ _).symm
  · show k0_pay3 x1 x = blockStack x0 x1 x2 (r0_3.emb x)
    rw [slab_emb 1 (by decide) _ x, slab1_apply]
    exact (pick_one _ _ _ _).symm
  · show k0_pay2 x0 x = blockStack x0 x1 x2 (r0_2.emb x)
    rw [slab_emb 0 (by decide) _ x, slab0_apply]
    exact (pick_zero _ _ _ _).symm

end Cert.KernelIdeal.BlockValue

end
-- ==== Proof.ArrayValue.lean ====
/-
  From blocks to the array: after the eight grid steps the kernel's [4, D, T] output array is the stack of the four
  pieces of the merge.

  Step k of the grid works on features 1024·k … 1024·k + 1023: its h block is h[0, :, those features], its c2q and q2c
  blocks are the rows of c2q and q2c at those features, and its output block is the [4, 1024, T] box of the output
  array at those features. Entry (p, d', t) of that box depends on the input blocks at feature d' and position t only,
  which are the input arrays at feature d = 1024·k + d'; so the box is the restriction of ONE function of the whole
  arrays, and the eight boxes cover the array.
-/
import proofs.«131602_j77283641524594_2_alg».proof.Proof.Gen.KernelIdeal.Frame
import proofs.«131602_j77283641524594_2_alg».proof.Proof.BlockValue
import proofs.«131602_j77283641524594_2_alg».proof.Proof.MergeSpec
import Idealize.ShloMosaic.Lib.Pipeline.Value
import Idealize.ShloMosaic.Lib.ValueIdx

noncomputable section

namespace Cert.KernelIdeal.ArrayValue

open Cert.KernelIdeal Cert.KernelIdeal.Gen Cert.KernelIdeal.BlockValue Idealize.ShloMosaic Idealize.ShloMosaic.TcCoe Idealize.SL.Sem
open Idealize.ShloMosaic.ValueIdx Cert.Merge
open Idealize.ShloMosaic.Pipeline (Dat)

variable {F : FTy → Type} [FloatOps F]
variable (m : (ℓ : Loc nD τ sig) → Buf (Elt F) ℓ) (ρ : Dev nD → PrngReg)

/-- The printed index maps, decided over the eight steps: every input block sits at the output block's feature
    offset, every other block coordinate is zero, and the feature offset stays inside the array. -/
theorem idx_facts : ∀ t : Fin cfg0.N,
    win0_0.index t (0 : Fin 3) = 0 ∧ win0_0.index t (1 : Fin 3) = 0 ∧ win0_0.index t (2 : Fin 3) = win0_3.index t (1 : Fin 3)
    ∧ win0_1.index t (0 : Fin 2) = win0_3.index t (1 : Fin 3) ∧ win0_1.index t (1 : Fin 2) = 0
    ∧ win0_2.index t (0 : Fin 2) = win0_3.index t (1 : Fin 3) ∧ win0_2.index t (1 : Fin 2) = 0
    ∧ win0_3.index t (0 : Fin 3) = 0 ∧ win0_3.index t (2 : Fin 3) = 0 ∧ win0_3.index t (1 : Fin 3) ≤ 7 :=
  (by decide +kernel : ∀ t : Fin grid0.N, _)

/-- Every one of the eight feature offsets is some step's. -/
theorem idx_onto : ∀ q : Fin 8, ∃ t : Fin cfg0.N, win0_3.index t (1 : Fin 3) = q.val :=
  (by decide +kernel : ∀ q : Fin 8, ∃ t : Fin grid0.N, win0_3.index t (1 : Fin 3) = q.val)

/-- An entry of step t's h block is h at the same position and the block's feature offset plus the entry's feature. -/
theorem hblk_apply (c : Dev nD) (t : Fin cfg0.N) (y : S1x500x1024.Idx) (i : S1x500x8192.Idx)
    (e0 : (i 0).val = 0) (e1 : (i 1).val = (y 1).val) (e2 : (i 2).val = win0_3.index t (1 : Fin 3) * 1024 + (y 2).val) :
    iblk m c 0 t y = V m c main_arg0 i := by
  obtain ⟨a0, a1, a2, -⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 3) * 1 + 1 * (y 0).val = (i 0).val; have h0 : (y 0).val < 1 := (y 0).isLt; omega
  | ⟨1, _⟩ => show win0_0.index t (1 : Fin 3) * 500 + 1 * (y 1).val = (i 1).val; omega
  | ⟨2, _⟩ => show win0_0.index t (2 : Fin 3) * 1024 + 1 * (y 2).val = (i 2).val; omega

/-- An entry of step t's c2q block is c2q at the block's feature offset plus the entry's feature, same position. -/
theorem cblk_apply (c : Dev nD) (t : Fin cfg0.N) (y : S1024x500.Idx) (i : S8192x500.Idx)
    (e0 : (i 0).val = win0_3.index t (1 : Fin 3) * 1024 + (y 0).val) (e1 : (i 1).val = (y 1).val) :
    iblk m c 1 t y = V m c main_arg1 i := by
  obtain ⟨-, -, -, a0, a1, -⟩ := idx_facts t
  show V m c main_arg1 (((cfg0.win 1).blk t).view.emb y) = V m c main_arg1 i
  refine congrArg (V m c main_arg1) (funext fun a => Fin.ext ?_)
  match a with
  | ⟨0, _⟩ => show win0_1.index t (0 : Fin 2) * 1024 + 1 * (y 0).val = (i 0).val; omega
  | ⟨1, _⟩ => show win0_1.index t (1 : Fin 2) * 500 + 1 * (y 1).val = (i 1).val; omega

/-- The same for the q2c block. -/
theorem qblk_apply (c : Dev nD) (t : Fin cfg0.N) (y : S1024x500.Idx) (i : S8192x500.Idx)
    (e0 : (i 0).val = win0_3.index t (1 : Fin 3) * 1024 + (y 0).val) (e1 : (i 1).val = (y 1).val) :
    iblk m c 2 t y = V m c main_arg2 i := by
  obtain ⟨-, -, -, -, -, a0, a1, -⟩ := idx_facts t
  show V m c main_arg2 (((cfg0.win 2).blk t).view.emb y) = V m c main_arg2 i
  refine congrArg (V m c main_arg2) (funext fun a => Fin.ext ?_)
  match a with
  | ⟨0, _⟩ => show win0_2.index t (0 : Fin 2) * 1024 + 1 * (y 0).val = (i 0).val; omega
  | ⟨1, _⟩ => show win0_2.index t (1 : Fin 2) * 500 + 1 * (y 1).val = (i 1).val; omega

/-- What step t writes back is its box of the stack of the four pieces of the argument arrays. -/
theorem flushed_eq (c : Dev nD) (t : Fin cfg0.N) :
    (dats m 0 c).flushed 3 t = ((cfg0.win 3).blk t).view.read (Elt F)
      (stacked (FloatOps.mulf : F .f32 → F .f32 → F .f32) (V m c main_arg0) (V m c main_arg1) (V m c main_arg2)) := by
  show (cfg0.win 3).cut (grid0.coords t) ((dats m 0 c).after 3 t) = _
  rw [after0_3, out_eq]
  obtain ⟨-, -, -, -, -, -, -, b0, b2, -⟩ := idx_facts t
  funext (j : S4x1024x500.Idx)
  show blockStack (iblk m c 0 t) (iblk m c 1 t) (iblk m c 2 t) j
    = stacked (FloatOps.mulf : F .f32 → F .f32 → F .f32) (V m c main_arg0) (V m c main_arg1) (V m c main_arg2) (((cfg0.win 3).blk t).view.emb j)
  have E0 : ((((cfg0.win 3).blk t).view.emb j) 0).val = (j 0).val := by
    show win0_3.index t (0 : Fin 3) * 4 + 1 * (j 0).val = (j 0).val; omega
  have E1 : ((((cfg0.win 3).blk t).view.emb j) 1).val = win0_3.index t (1 : Fin 3) * 1024 + (j 1).val := by
    show win0_3.index t (1 : Fin 3) * 1024 + 1 * (j 1).val = _; omega
  have E2 : ((((cfg0.win 3).blk t).view.emb j) 2).val = (j 2).val := by
    show win0_3.index t (2 : Fin 3) * 500 + 1 * (j 2).val = (j 2).val; omega
  unfold blockStack stacked
  exact pick_congr _ E0.symm (hblk_apply m c t _ _ rfl E2 E1) (cblk_apply m c t _ _ E1 E2) (qblk_apply m c t _ _ E1 E2)

/-- An index of the output array is in step t's box iff each coordinate is in the box's range on its axis. -/
theorem mem_blk (t : Fin cfg0.N) (i : S4x8192x500.Idx) :
    i ∈ ((cfg0.win 3).blk t).view.set ↔ ∀ a : Fin 3, win0_3.index t a * S4x1024x500.size a ≤ (i a).val ∧ (i a).val < win0_3.index t a * S4x1024x500.size a + S4x1024x500.size a := by
  show i ∈ ((View.whole main_v0).slice (win0_3.rect t)).set ↔ _
  rw [View.set_slice_whole, Rect.mem_set_unit]
  exact Iff.rfl

/-- The eight boxes cover the output array: feature d is in the box of the step with offset d div 1024. -/
theorem cover (i : S4x8192x500.Idx) : ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 500 := (i 2).isLt
  obtain ⟨t, ht⟩ := idx_onto ⟨(i 1).val / 1024, by omega⟩
  obtain ⟨-, -, -, -, -, -, -, b0, b2, -⟩ := idx_facts t
  have q1 : win0_3.index t (1 : Fin 3) = (i 1).val / 1024 := ht
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 500 ≤ (i 2).val ∧ (i 2).val < win0_3.index t (2 : Fin 3) * 500 + 500; omega

/-- The output array after the eight steps is the stack of the four pieces of the argument arrays. -/
theorem final (c : Dev nD) :
    (dats m 0 c).arrAt 3 cfg0.N
      = stacked (FloatOps.mulf : F .f32 → F .f32 → F .f32) (V m c main_arg0) (V m c main_arg1) (V m c main_arg2) :=
  (dats m 0 c).arrAt_eq_of_cover 3 _ (fun t _ => flushed_eq m c t) cover

end Cert.KernelIdeal.ArrayValue

end
-- ==== Proof.RunValue.lean ====
/-
  The kernel's program, run: its result is the merge of its arguments.

  The program launches the eight-step grid, which leaves the [4, D, T] stack of the four pieces in its output array,
  and then reads that array as [4·D, T]: entry (r, t) of the result is entry (r div D, r mod D, t) of the stack.
-/
import proofs.«131602_j77283641524594_2_alg».proof.Proof.Gen.KernelIdeal.Frame
import proofs.«131602_j77283641524594_2_alg».proof.Proof.ArrayValue
import proofs.«131602_j77283641524594_2_alg».proof.Proof.MergeSpec
import Idealize.ShloMosaic.Lib.Pipeline.Value
import Idealize.ShloMosaic.Lib.StableHlo.Run
import Idealize.ShloMosaic.Lib.ValueIdx

noncomputable section

namespace Cert.KernelIdeal.RunValue

open Cert.KernelIdeal Cert.KernelIdeal.Gen Idealize.ShloMosaic Idealize.ShloMosaic.TcCoe Idealize.SL.Sem
open Idealize.ShloMosaic.ValueIdx Cert.Merge
open Idealize.ShloMosaic.Pipeline (Dat)

variable {F : FTy → Type} [FloatOps F]
variable (m : (ℓ : Loc nD τ sig) → Buf (Elt F) ℓ) (ρ : Dev nD → PrngReg)

/-- The result buffer is no array of the grid: it is written only by the line after it. -/
theorem result_rest : main_v1 ∈ Pipeline.restRefs sig (cfgs 0).spec :=
  Pipeline.mem_restRefs_of main_v1 rfl (fun w => by fin_cases w <;> decide)

/-- The line after the grid reads the grid's output array, whatever it holds, as a [4·D, T] matrix. -/
theorem tail (c : Dev nD) (G : Buf (Elt F) ((c : Thread nD τ).loc main_v0)) (hG : (dats m 0 c).arrAt 3 cfg0.N = G) :
    Pipeline.afterTail₀ cfgs (dats m) 0 (V0 m) [hostOps1] c main_v1 = shapeCast S32768x500 G shapeCasts_S4x8192x500_S32768x500 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0) = G :=
    (Pipeline.withArrays_arr spec0 launch0.win.arr_inj c _ _ 3).trans hG
  rw [e]
  rfl

/-- The stack read as a [4·D, T] matrix is the merge. -/
theorem flatten_stack {α : Type} (mul : α → α → α) (h : S1x500x8192.Idx → α) (a b : S8192x500.Idx → α)
    (hc : S4x8192x500.ShapeCasts S32768x500) :
    shapeCast S32768x500 (stacked mul h a b) hc = merged mul h a b := by
  funext i
  exact shapeCast_apply _ hc i (unflat i) (by
    rw [Shape.rowMajor_val_three, Shape.rowMajor_val_two]
    show ((i 0).val / 8192 * 8192 + (i 0).val % 8192) * 500 + (i 1).val = (i 0).val * 500 + (i 1).val
    omega)

/-- After the frame run the result buffer holds the merge of the argument arrays as launched. -/
theorem result (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v1)
      = merged (FloatOps.mulf : F .f32 → F .f32 → F .f32) (m ((c : Thread nD τ).loc main_arg0))
          (m ((c : Thread nD τ).loc main_arg1)) (m ((c : Thread nD τ).loc main_arg2)) := by
  refine ((h c).2 main_v1 result_rest).trans ((tail m c _ (ArrayValue.final m c)).trans ?_)
  rw [V_main_arg0, V_main_arg1, V_main_arg2]
  exact flatten_stack _ _ _ _ _

/-- Every weakly fair execution of the kernel's program terminates with the result buffer at the merge of the
    arguments and the arguments unchanged. -/
theorem run : θ_run defs (onTc (τ := τ) (main (F := F))) ⟨m, fun _ => 0, ρ⟩ fun r => ∀ c : Dev nD,
      r.2.mem ((c.tc : Thread nD τ).loc main_v1)
        = merged (FloatOps.mulf : F .f32 → F .f32 → F .f32) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨result m r h c,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.RefValue.lean ====
/-
  The reference, entry by entry, is the merge.

  The reference forms H = h[0] ([T, D]), C = c2qᵀ and Q = q2cᵀ ([T, D]), joins H, C, H·C, H·Q along the feature axis
  into [T, 4·D] and transposes. Column r = p·D + d of the joined array is column d of piece p, so after the transpose
  row r of the result at position t is `pick` at piece p of h[0, t, d], c2q[d, t], q2c[d, t].
-/
import proofs.«131602_j77283641524594_2_alg».proof.Proof.Gen.ReferenceIdeal.Read
import proofs.«131602_j77283641524594_2_alg».proof.Proof.MergeSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Merge

variable {F : FTy → Type} [FloatOps F]

/-- H at (t, d) is h at (0, t, d). -/
theorem h_apply (x0 : (⟨S1x500x8192, .f32⟩ : BufTy).Contents (Elt F)) (s : Fin 500) (d : Fin 8192) :
    val_main_v0 (F := F) x0 (ix2 s d) = x0 (ix3 (0 : Fin 1) s d) := by
  refine (val_main_v0_apply x0 (ix2 s d)).trans (congrArg x0 (funext fun a => Fin.ext ?_))
  match a with
  | ⟨0, _⟩ => rfl
  | ⟨1, _⟩ => show (s.val * 8192 + d.val) / 8192 % 500 = s.val; omega
  | ⟨2, _⟩ => show (s.val * 8192 + d.val) % 8192 = d.val; omega

/-- C at (t, d) is c2q at (d, t). -/
theorem c_apply (x1 : (⟨S8192x500, .f32⟩ : BufTy).Contents (Elt F)) (s : Fin 500) (d : Fin 8192) :
    val_main_v1 (F := F) x1 (ix2 s d) = x1 (ix2 d s) := by
  refine (val_main_v1_apply x1 (ix2 s d)).trans (congrArg x1 (funext fun a => Fin.ext ?_))
  match a with
  | ⟨0, _⟩ => rfl
  | ⟨1, _⟩ => rfl

/-- Q at (t, d) is q2c at (d, t). -/
theorem q_apply (x2 : (⟨S8192x500, .f32⟩ : BufTy).Contents (Elt F)) (s : Fin 500) (d : Fin 8192) :
    val_main_v2 (F := F) x2 (ix2 s d) = x2 (ix2 d s) := by
  refine (val_main_v2_apply x2 (ix2 s d)).trans (congrArg x2 (funext fun a => Fin.ext ?_))
  match a with
  | ⟨0, _⟩ => rfl
  | ⟨1, _⟩ => rfl

/-- The joined array at (t, p·D + d) is piece p at (t, d). -/
theorem joined_apply (x0 : (⟨S1x500x8192, .f32⟩ : BufTy).Contents (Elt F)) (x1 x2 : (⟨S8192x500, .f32⟩ : BufTy).Contents (Elt F))
    (s : Fin 500) (p : Fin 4) (d : Fin 8192) (r : Fin 32768) (hr : r.val = p.val * 8192 + d.val) :
    val_main_v5 (F := F) x0 x1 x2 (ix2 s r)
      = pick (FloatOps.mulf : F .f32 → F .f32 → F .f32) p.val (x0 (ix3 (0 : Fin 1) s d)) (x1 (ix2 d s)) (x2 (ix2 d s)) := by
  unfold val_main_v5
  -- the four pieces, in the order they are joined
  let pieces : List ((s : Shape) × (s.Idx → F .f32)) :=
    [⟨S500x8192, val_main_v0 (F := F) x0⟩, ⟨S500x8192, val_main_v1 (F := F) x1⟩, ⟨S500x8192, val_main_v3 (F := F) x0 x1⟩, ⟨S500x8192, val_main_v4 (F := F) x0 x2⟩]
  show concatenate S500x32768 1 pieces concatenates_S500x8192_S500x8192_S500x8192_S500x8192_S500x32768_d1 (ix2 s r) = _
  have hi : ∀ b : Fin 2, b.cast (rfl : S500x8192.rank = S500x32768.rank) ≠ (1 : Fin 2) →
      ((ix2 s d : S500x8192.Idx) b).val = ((ix2 s r : S500x32768.Idx) (b.cast rfl)).val := fun b hb =>
    match b, hb with
    | ⟨0, _⟩, _ => rfl
    | ⟨1, _⟩, hb => absurd rfl hb
  obtain ⟨p, hp⟩ := p
  have hp' : p = 0 ∨ p = 1 ∨ p = 2 ∨ p = 3 := by omega
  rcases hp' with rfl | rfl | rfl | rfl
  · refine (concatenate_apply_piece (t := S500x32768) (1 : Fin 2) pieces concatenates_S500x8192_S500x8192_S500x8192_S500x8192_S500x32768_d1 (ix2 s r)
      0 (by show (0 : Nat) < 4; omega) S500x8192 (val_main_v0 (F := F) x0) rfl rfl 0 (by simp [pieces]) (ix2 s d) hi
      (by show 0 + d.val = r.val; simp only at hr; omega)).trans ?_
    rw [h_apply]; exact (pick_zero _ _ _ _).symm
  · refine (concatenate_apply_piece (t := S500x32768) (1 : Fin 2) pieces concatenates_S500x8192_S500x8192_S500x8192_S500x8192_S500x32768_d1 (ix2 s r)
      1 (by show (1 : Nat) < 4; omega) S500x8192 (val_main_v1 (F := F) x1) rfl rfl 8192 (by simp [pieces]) (ix2 s d) hi
      (by show 8192 + d.val = r.val; simp only at hr; omega)).trans ?_
    rw [c_apply]; exact (pick_one _ _ _ _).symm
  · refine (concatenate_apply_piece (t := S500x32768) (1 : Fin 2) pieces concatenates_S500x8192_S500x8192_S500x8192_S500x8192_S500x32768_d1 (ix2 s r)
      2 (by show (2 : Nat) < 4; omega) S500x8192 (val_main_v3 (F := F) x0 x1) rfl rfl 16384 (by simp [pieces]) (ix2 s d) hi
      (by show 16384 + d.val = r.val; simp only at hr; omega)).trans ?_
    rw [val_main_v3_apply, h_apply, c_apply]; exact (pick_two _ _ _ _).symm
  · refine (concatenate_apply_piece (t := S500x32768) (1 : Fin 2) pieces concatenates_S500x8192_S500x8192_S500x8192_S500x8192_S500x32768_d1 (ix2 s r)
      3 (by show (3 : Nat) < 4; omega) S500x8192 (val_main_v4 (F := F) x0 x2) rfl rfl 24576 (by simp [pieces]) (ix2 s d) hi
      (by show 24576 + d.val = r.val; simp only at hr; omega)).trans ?_
    rw [val_main_v4_apply, h_apply, q_apply]; exact (pick_three _ _ _ _).symm

/-- The reference's result is the merge of its arguments. -/
theorem result_eq (x0 : (⟨S1x500x8192, .f32⟩ : BufTy).Contents (Elt F)) (x1 x2 : (⟨S8192x500, .f32⟩ : BufTy).Contents (Elt F)) :
    val_main_v6 (F := F) x0 x1 x2 = merged (FloatOps.mulf : F .f32 → F .f32 → F .f32) x0 x1 x2 := by
  funext i
  have h0 : (i 0).val < 32768 := (i 0).isLt
  have e : idx_main_v6 i = ix2 (i 1 : Fin 500) (i 0 : Fin 32768) := funext fun a => match a with
    | ⟨0, _⟩ => rfl
    | ⟨1, _⟩ => rfl
  refine (val_main_v6_apply x0 x1 x2 i).trans ?_
  rw [e]
  exact joined_apply x0 x1 x2 (i 1) ⟨(i 0).val / 8192, by omega⟩ ⟨(i 0).val % 8192, Nat.mod_lt _ (by norm_num)⟩ (i 0)
    (by show (i 0).val = (i 0).val / 8192 * 8192 + (i 0).val % 8192; omega)

end Cert.ReferenceIdeal.RefValue

end
-- ==== Proof.lean ====
/-
  The attention-flow merge kernel against its jnp reference.

  Both programs compute, from h : [1, T, D] and c2q, q2c : [D, T] (T = 500, D = 8192), the [4·D, T] matrix whose row
  p·D + d at position t is
      h[0, t, d]  (p = 0),   c2q[d, t]  (p = 1),   h[0, t, d] · c2q[d, t]  (p = 2),   h[0, t, d] · q2c[d, t]  (p = 3)
  (`Cert.Merge.merged`, Proof/MergeSpec.lean). The kernel transposes h block by block over eight blocks of 1024 features,
  stores the four pieces of each block into a [4, D, T] array and reads that array as [4·D, T]
  (Proof/BlockValue.lean: one block; Proof/ArrayValue.lean: the eight blocks cover the array; Proof/RunValue.lean: the
  program's run). The reference transposes c2q and q2c instead, joins the four [T, D] pieces along the feature axis and
  transposes the join (Proof/RefValue.lean). The two arrangements name the same entries and each product has its factors
  in the same order on both sides, so no law of arithmetic is used and the inputs' finiteness is never opened.
  The three frames are the generated runs; the idealization rewrote nothing, so `preserves` is trivial.
-/
import proofs.«131602_j77283641524594_2_alg».proof.Defs
import proofs.«131602_j77283641524594_2_alg».proof.Proof.Gen.Kernel
import proofs.«131602_j77283641524594_2_alg».proof.Proof.Gen.Kernel.Skeleton
import proofs.«131602_j77283641524594_2_alg».proof.Proof.Gen.Kernel.Launch
import proofs.«131602_j77283641524594_2_alg».proof.Proof.Gen.Kernel.Points
import proofs.«131602_j77283641524594_2_alg».proof.Proof.Gen.Kernel.Frame
import proofs.«131602_j77283641524594_2_alg».proof.Proof.Gen.KernelIdeal
import proofs.«131602_j77283641524594_2_alg».proof.Proof.Gen.KernelIdeal.Skeleton
import proofs.«131602_j77283641524594_2_alg».proof.Proof.Gen.KernelIdeal.Launch
import proofs.«131602_j77283641524594_2_alg».proof.Proof.Gen.KernelIdeal.Points
import proofs.«131602_j77283641524594_2_alg».proof.Proof.Gen.KernelIdeal.Frame
import proofs.«131602_j77283641524594_2_alg».proof.Proof.Gen.ReferenceIdeal
import proofs.«131602_j77283641524594_2_alg».proof.Proof.Gen.Pre_finite_inputs
import proofs.«131602_j77283641524594_2_alg».proof.Proof.Gen.ReferenceIdeal.Run
import proofs.«131602_j77283641524594_2_alg».proof.Proof.Gen.ReferenceIdeal.Read
import proofs.«131602_j77283641524594_2_alg».proof.Proof.MergeSpec
import proofs.«131602_j77283641524594_2_alg».proof.Proof.RunValue
import proofs.«131602_j77283641524594_2_alg».proof.Proof.RefValue
import Idealize.ShloMosaic.Adequacy
import Idealize.ShloMosaic.Init

noncomputable section

namespace Cert.Proof

open Idealize.ShloMosaic Idealize.SL.Sem Cert.Kernel

/-- The word-level kernel's program runs and leaves its arguments unchanged. -/
theorem frame_kernel : Cert.frame_Kernel := fun m ρ _ => Cert.Kernel.Gen.frame m ρ

/-- So does the idealized kernel's program. -/
theorem frame_kernel_ideal : Cert.frame_KernelIdeal := fun m ρ _ => Cert.KernelIdeal.Gen.frame m ρ

/-- The reference runs and leaves its arguments unchanged: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the merge of those arguments. -/
theorem algebraic : Cert.algebraic_KernelIdeal_ReferenceIdeal := by
  intro m ρ m' ρ' _ hagree
  refine ⟨fun c => Cert.Merge.merged (FloatOps.mulf : Ideal .f32 → Ideal .f32 → Ideal .f32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
